-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x8 : Shape := ⟨2, ![4096, 8]⟩
abbrev S4096x512 : Shape := ⟨2, ![4096, 512]⟩
abbrev S4096 : Shape := ⟨1, ![4096]⟩
abbrev S65536 : Shape := ⟨1, ![65536]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x8 : S_.BroadcastsInDim S4096x8 (![] : Fin 0 → Fin S4096x8.rank)
  reducesTo_S4096x8_S_d0_1 : S4096x8.ReducesTo [0, 1] S_
  bcast_S_S4096 : S_.BroadcastsInDim S4096 (![] : Fin 0 → Fin S4096.rank)
  reducesTo_S4096_S_d0 : S4096.ReducesTo [0] S_
  bcast_S_S65536 : S_.BroadcastsInDim S65536 (![] : Fin 0 → Fin S65536.rank)
  reducesTo_S65536_S_d0 : S65536.ReducesTo [0] S_

variable [Facts]

def fn_part1 {F : FTy → Type} [FloatOps F] (main_arg7 : FVec F S65536 .f32) (main_arg8 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S65536 .f32 := Host.absf main_arg7
  let main_cst_6 : FVec F S_ .f32 := constant S_ .f32 0x7F800000#32
  let main_v20 : FVec F S65536 .f32 := broadcastInDim S65536 ![] bcast_S_S65536 main_cst_6
  let main_v21 : IVec S65536 1 := cmpf .olt main_v19 main_v20
  let main_c_7 : IVec S_ 1 := constantI S_ 1 1#1
  let main_v22 : IVec S_ 1 := (fun x v => Host.reduce IntOp.andi x v reducesTo_S65536_S_d0 h_S_) main_v21 main_c_7
  let main_v23 : IVec S_ 1 := andi main_v18 main_v22
  let main_v24 : FVec F S4096 .f32 := Host.absf main_arg8
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S4x2048x4096 .f32) (main_arg1 : FVec F S4096x8 .f32) (main_arg2 : IVec S4096x512 32) (main_arg3 : IVec S4096 32) (main_arg4 : FVec F S4096 .f32) (main_arg5 : FVec F S4096 .f32) (main_arg6 : IVec S65536 32) (main_arg7 : FVec F S65536 .f32) (main_arg8 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x8 .f32 := Host.absf main_arg1
  let main_cst_0 : FVec F S_ .f32 := constant S_ .f32 0x7F800000#32
  let main_v5 : FVec F S4096x8 .f32 := broadcastInDim S4096x8 ![] bcast_S_S4096x8 main_cst_0
  let main_v6 : IVec S4096x8 1 := cmpf .olt main_v4 main_v5
  let main_c_1 : IVec S_ 1 := constantI S_ 1 1#1
  let main_v7 : IVec S_ 1 := (fun x v => Host.reduce IntOp.andi x v reducesTo_S4096x8_S_d0_1 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg5
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg7 main_arg8 main_v13 main_v16
-- ==== Kernel.lean ====
abbrev S4x2048x4096 : Shape := ⟨3, ![4, 2048, 4096]⟩
abbrev S4096x8 : Shape := ⟨2, ![4096, 8]⟩
abbrev S4096x512 : Shape := ⟨2, ![4096, 512]⟩
abbrev S4096 : Shape := ⟨1, ![4096]⟩
abbrev S65536 : Shape := ⟨1, ![65536]⟩
abbrev S_ : Shape := ⟨0, ![]⟩
abbrev S4096x512x1 : Shape := ⟨3, ![4096, 512, 1]⟩
abbrev S4096x512x8 : Shape := ⟨3, ![4096, 512, 8]⟩
abbrev S4096x4096 : Shape := ⟨2, ![4096, 4096]⟩
abbrev S4096x1 : Shape := ⟨2, ![4096, 1]⟩
abbrev S1x4096 : Shape := ⟨2, ![1, 4096]⟩
abbrev S16777216 : Shape := ⟨1, ![16777216]⟩
abbrev S65536x1 : Shape := ⟨2, ![65536, 1]⟩
abbrev S8192x4096 : Shape := ⟨2, ![8192, 4096]⟩
abbrev S512x4096 : Shape := ⟨2, ![512, 4096]⟩
abbrev S4096x1024 : Shape := ⟨2, ![4096, 1024]⟩
abbrev S1x1024 : Shape := ⟨2, ![1, 1024]⟩
abbrev S512x1024 : Shape := ⟨2, ![512, 1024]⟩

abbrev nBuf : Space → Nat
  | .hbm => 54
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S4096x8, .f32⟩
  | .hbm, ⟨2, _⟩ => ⟨S4096x512, .i32⟩
  | .hbm, ⟨3, _⟩ => ⟨S4096, .i32⟩
  | .hbm, ⟨4, _⟩ => ⟨S4096, .f32⟩
  | .hbm, ⟨5, _⟩ => ⟨S4096, .f32⟩
  | .hbm, ⟨6, _⟩ => ⟨S65536, .i32⟩
  | .hbm, ⟨7, _⟩ => ⟨S65536, .f32⟩
  | .hbm, ⟨8, _⟩ => ⟨S4096, .f32⟩
  | .hbm, ⟨9, _⟩ => ⟨S_, .i32⟩
  | .hbm, ⟨10, _⟩ => ⟨S4096x512, .i32⟩
  | .hbm, ⟨11, _⟩ => ⟨S4096x512, .i1⟩
  | .hbm, ⟨12, _⟩ => ⟨S_, .i32⟩
  | .hbm, ⟨13, _⟩ => ⟨S4096x512, .i32⟩
  | .hbm, ⟨14, _⟩ => ⟨S4096x512, .i32⟩
  | .hbm, ⟨15, _⟩ => ⟨S4096x512, .i32⟩
  | .hbm, ⟨16, _⟩ => ⟨S4096x512x1, .i32⟩
  | .hbm, ⟨17, _⟩ => ⟨S4096x512x8, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S4096, .i32⟩
  | .hbm, ⟨28, _⟩ => ⟨S4096x1, .i32⟩
  | .hbm, ⟨29, _⟩ => ⟨S4096x4096, .f32⟩
  | .hbm, ⟨30, _⟩ => ⟨S1x4096, .f32⟩
  | .hbm, ⟨31, _⟩ => ⟨S4096x1, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S16777216, .f32⟩
  | .hbm, ⟨37, _⟩ => ⟨S_, .i32⟩
  | .hbm, ⟨38, _⟩ => ⟨S65536, .i32⟩
  | .hbm, ⟨39, _⟩ => ⟨S65536, .i1⟩
  | .hbm, ⟨40, _⟩ => ⟨S_, .i32⟩
  | .hbm, ⟨41, _⟩ => ⟨S65536, .i32⟩
  | .hbm, ⟨42, _⟩ => ⟨S65536, .i32⟩
  | .hbm, ⟨43, _⟩ => ⟨S65536, .i32⟩
  | .hbm, ⟨44, _⟩ => ⟨S65536x1, .i32⟩
  | .hbm, ⟨45, _⟩ => ⟨S16777216, .f32⟩
  | .hbm, ⟨46, _⟩ => ⟨S4096x4096, .f32⟩
  | .hbm, ⟨47, _⟩ => ⟨S8192x4096, .f32⟩
  | .hbm, ⟨48, _⟩ => ⟨S8192x4096, .bf16⟩
  | .hbm, ⟨49, _⟩ => ⟨S4096x4096, .f32⟩
  | .hbm, ⟨50, _⟩ => ⟨S4096x4096, .bf16⟩
  | .hbm, ⟨51, _⟩ => ⟨S1x4096, .f32⟩
  | .hbm, ⟨52, _⟩ => ⟨S8192x4096, .f32⟩
  | .hbm, ⟨53, _⟩ => ⟨S4x2048x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S4096x512 : S_.BroadcastsInDim S4096x512 (![] : Fin 0 → Fin S4096x512.rank)
  bcast_S4096x512_S4096x512x1_0_1 : S4096x512.BroadcastsInDim S4096x512x1 (![0, 1] : Fin 2 → Fin S4096x512x1.rank)
  shapeCasts_S4096x512x8_S4096x4096 : S4096x512x8.ShapeCasts S4096x4096
  bcast_S_S4096x4096 : S_.BroadcastsInDim S4096x4096 (![] : Fin 0 → Fin S4096x4096.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  shapeCasts_S4096x4096_S16777216 : S4096x4096.ShapeCasts S16777216
  bcast_S_S65536 : S_.BroadcastsInDim S65536 (![] : Fin 0 → Fin S65536.rank)
  bcast_S65536_S65536x1_0 : S65536.BroadcastsInDim S65536x1 (![0] : Fin 1 → Fin S65536x1.rank)
  shapeCasts_S16777216_S4096x4096 : S16777216.ShapeCasts S4096x4096
  shapeCasts_S4x2048x4096_S8192x4096 : S4x2048x4096.ShapeCasts S8192x4096
  bitsLt_bf16_f32 : FTy.bits .bf16 < FTy.bits .f32
  transposes_S4096x4096_S4096x4096_1_0 : S4096x4096.Transposes [1, 0] S4096x4096
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S8192x4096_S4x2048x4096 : S8192x4096.ShapeCasts S4x2048x4096
  gather_S4096x8_S4096x512x1_S4096x512x8_2_0_n_n_0_2_18_wf : GatherDims.WF S4096x8 S4096x512x1 S4096x512x8 [2] [0] [] [0] [] 2 ![1, 8]
  scatter_S4096x4096_S4096x1_S4096x4096_0_1_1_1_wf : ScatterDims.WF S4096x4096 S4096x1 S4096x4096 [0] [1] [1] 1
  scatter_S16777216_S65536x1_S65536_n_0_0_1_wf : ScatterDims.WF S16777216 S65536x1 S65536 [] [0] [0] 1
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x4096.size a
  hwx0_1 : ∀ i : grid0.Coords, EltTy.bits .bf16 = 32 ∨ (Rect.block (s := S4096x4096) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x4096.size a
  hwx0_3 : ∀ i : grid0.Coords, EltTy.bits .f32 = 32 ∨ (Rect.block (s := S8192x4096) S512x1024.size (cc0_transform_3 i) (hinb0_3 i)).WholeWords (EltTy.packing .f32)

variable [Facts₀]

def gather_S4096x8_S4096x512x1_S4096x512x8_2_0_n_n_0_2_18 : GatherDims S4096x8 S4096x512x1 S4096x512x8 where
  offsetDims := [2]
  collapsedSliceDims := [0]
  operandBatchingDims := []
  startIndicesBatchingDims := []
  startIndexMap := [0]
  indexVectorDim := 2
  sliceSizes := ![1, 8]
  wf := gather_S4096x8_S4096x512x1_S4096x512x8_2_0_n_n_0_2_18_wf
def scatter_S4096x4096_S4096x1_S4096x4096_0_1_1_1 : ScatterDims S4096x4096 S4096x1 S4096x4096 where
  updateWindowDims := [0]
  insertedWindowDims := [1]
  scatterDimsToOperandDims := [1]
  indexVectorDim := 1
  wf := scatter_S4096x4096_S4096x1_S4096x4096_0_1_1_1_wf
def scatter_S16777216_S65536x1_S65536_n_0_0_1 : ScatterDims S16777216 S65536x1 S65536 where
  updateWindowDims := []
  insertedWindowDims := [0]
  scatterDimsToOperandDims := [0]
  indexVectorDim := 1
  wf := scatter_S16777216_S65536x1_S65536_n_0_0_1_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_v32) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S4096x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v36) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x8 : Shape := ⟨2, ![4096, 8]⟩
abbrev S4096x512 : Shape := ⟨2, ![4096, 512]⟩
abbrev S4096 : Shape := ⟨1, ![4096]⟩
abbrev S65536 : Shape := ⟨1, ![65536]⟩
abbrev S_ : Shape := ⟨0, ![]⟩
abbrev S4096x512x1 : Shape := ⟨3, ![4096, 512, 1]⟩
abbrev S4096x512x8 : Shape := ⟨3, ![4096, 512, 8]⟩
abbrev S4096x4096 : Shape := ⟨2, ![4096, 4096]⟩
abbrev S4096x1 : Shape := ⟨2, ![4096, 1]⟩
abbrev S1x4096 : Shape := ⟨2, ![1, 4096]⟩
abbrev S16777216 : Shape := ⟨1, ![16777216]⟩
abbrev S65536x1 : Shape := ⟨2, ![65536, 1]⟩
abbrev S1x1x4096 : Shape := ⟨3, ![1, 1, 4096]⟩

abbrev nBuf : Space → Nat
  | .hbm => 51
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x8, .f32⟩
  | .hbm, ⟨2, _⟩ => ⟨S4096x512, .i32⟩
  | .hbm, ⟨3, _⟩ => ⟨S4096, .i32⟩
  | .hbm, ⟨4, _⟩ => ⟨S4096, .f32⟩
  | .hbm, ⟨5, _⟩ => ⟨S4096, .f32⟩
  | .hbm, ⟨6, _⟩ => ⟨S65536, .i32⟩
  | .hbm, ⟨7, _⟩ => ⟨S65536, .f32⟩
  | .hbm, ⟨8, _⟩ => ⟨S4096, .f32⟩
  | .hbm, ⟨9, _⟩ => ⟨S_, .i32⟩
  | .hbm, ⟨10, _⟩ => ⟨S4096x512, .i32⟩
  | .hbm, ⟨11, _⟩ => ⟨S4096x512, .i1⟩
  | .hbm, ⟨12, _⟩ => ⟨S_, .i32⟩
  | .hbm, ⟨13, _⟩ => ⟨S4096x512, .i32⟩
  | .hbm, ⟨14, _⟩ => ⟨S4096x512, .i32⟩
  | .hbm, ⟨15, _⟩ => ⟨S4096x512, .i32⟩
  | .hbm, ⟨16, _⟩ => ⟨S4096x512x1, .i32⟩
  | .hbm, ⟨17, _⟩ => ⟨S4096x512x8, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S4096, .i32⟩
  | .hbm, ⟨28, _⟩ => ⟨S4096x1, .i32⟩
  | .hbm, ⟨29, _⟩ => ⟨S4096x4096, .f32⟩
  | .hbm, ⟨30, _⟩ => ⟨S1x4096, .f32⟩
  | .hbm, ⟨31, _⟩ => ⟨S4096x1, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S16777216, .f32⟩
  | .hbm, ⟨37, _⟩ => ⟨S_, .i32⟩
  | .hbm, ⟨38, _⟩ => ⟨S65536, .i32⟩
  | .hbm, ⟨39, _⟩ => ⟨S65536, .i1⟩
  | .hbm, ⟨40, _⟩ => ⟨S_, .i32⟩
  | .hbm, ⟨41, _⟩ => ⟨S65536, .i32⟩
  | .hbm, ⟨42, _⟩ => ⟨S65536, .i32⟩
  | .hbm, ⟨43, _⟩ => ⟨S65536, .i32⟩
  | .hbm, ⟨44, _⟩ => ⟨S65536x1, .i32⟩
  | .hbm, ⟨45, _⟩ => ⟨S16777216, .f32⟩
  | .hbm, ⟨46, _⟩ => ⟨S4096x4096, .f32⟩
  | .hbm, ⟨47, _⟩ => ⟨S4x2048x4096, .f32⟩
  | .hbm, ⟨48, _⟩ => ⟨S1x1x4096, .f32⟩
  | .hbm, ⟨49, _⟩ => ⟨S4x2048x4096, .f32⟩
  | .hbm, ⟨50, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  bcast_S_S4096x512 : S_.BroadcastsInDim S4096x512 (![] : Fin 0 → Fin S4096x512.rank)
  bcast_S4096x512_S4096x512x1_0_1 : S4096x512.BroadcastsInDim S4096x512x1 (![0, 1] : Fin 2 → Fin S4096x512x1.rank)
  shapeCasts_S4096x512x8_S4096x4096 : S4096x512x8.ShapeCasts S4096x4096
  bcast_S_S4096x4096 : S_.BroadcastsInDim S4096x4096 (![] : Fin 0 → Fin S4096x4096.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  shapeCasts_S4096x4096_S16777216 : S4096x4096.ShapeCasts S16777216
  bcast_S_S65536 : S_.BroadcastsInDim S65536 (![] : Fin 0 → Fin S65536.rank)
  bcast_S65536_S65536x1_0 : S65536.BroadcastsInDim S65536x1 (![0] : Fin 1 → Fin S65536x1.rank)
  shapeCasts_S16777216_S4096x4096 : S16777216.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S4096x8_S4096x512x1_S4096x512x8_2_0_n_n_0_2_18_wf : GatherDims.WF S4096x8 S4096x512x1 S4096x512x8 [2] [0] [] [0] [] 2 ![1, 8]
  scatter_S4096x4096_S4096x1_S4096x4096_0_1_1_1_wf : ScatterDims.WF S4096x4096 S4096x1 S4096x4096 [0] [1] [1] 1
  scatter_S16777216_S65536x1_S65536_n_0_0_1_wf : ScatterDims.WF S16777216 S65536x1 S65536 [] [0] [0] 1
  dot_S4x2048x4096_S4096x4096_S4x2048x4096_2_1_01_0_n_n_wf : DotDims.WF S4x2048x4096 S4096x4096 S4x2048x4096 [2] [1] [0, 1] [0] [] []

variable [Facts₀]

def gather_S4096x8_S4096x512x1_S4096x512x8_2_0_n_n_0_2_18 : GatherDims S4096x8 S4096x512x1 S4096x512x8 where
  offsetDims := [2]
  collapsedSliceDims := [0]
  operandBatchingDims := []
  startIndicesBatchingDims := []
  startIndexMap := [0]
  indexVectorDim := 2
  sliceSizes := ![1, 8]
  wf := gather_S4096x8_S4096x512x1_S4096x512x8_2_0_n_n_0_2_18_wf
def scatter_S4096x4096_S4096x1_S4096x4096_0_1_1_1 : ScatterDims S4096x4096 S4096x1 S4096x4096 where
  updateWindowDims := [0]
  insertedWindowDims := [1]
  scatterDimsToOperandDims := [1]
  indexVectorDim := 1
  wf := scatter_S4096x4096_S4096x1_S4096x4096_0_1_1_1_wf
def scatter_S16777216_S65536x1_S65536_n_0_0_1 : ScatterDims S16777216 S65536x1 S65536 where
  updateWindowDims := []
  insertedWindowDims := [0]
  scatterDimsToOperandDims := [0]
  indexVectorDim := 1
  wf := scatter_S16777216_S65536x1_S65536_n_0_0_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The linear layer both programs compute, as ONE function of three arrays: for an input x of shape [4, 2048, 4096], a
  weight matrix w of shape [4096, 4096] (row o holds the weights of output feature o) and a bias b of length 4096,

      out[b, s, o] = (sum over k < 4096 of x[b, s, k] * w[o, k]) + bias[o]

  on the extended reals. The weight matrix itself (a codebook gather, a column scatter, a scaling by two norm vectors and
  a sparse overwrite) is built by the same host operations in both programs, so it enters here as an array, never opened.
  The same function, written for the input with its two leading axes merged into 8192 rows, is `linearRows`; the two are
  one array under the row-major reading  r = b * 2048 + s.
-/
import Idealize.ShloMosaic.PureOps.Ideal
import Idealize.ShloMosaic.Lib.ValueIdx
import Idealize.ShloMosaic.Lib.Pipeline.Value

noncomputable section

namespace Cert.Linear

open Idealize.ShloMosaic Idealize.ShloMosaic.ValueIdx

/-- out[b, s, o] = sum_k x[b, s, k] * w[o, k] + bias[o]. -/
def linear (x : FVec Ideal ⟨3, ![4, 2048, 4096]⟩ .f32) (w : FVec Ideal ⟨2, ![4096, 4096]⟩ .f32) (bias : FVec Ideal ⟨1, ![4096]⟩ .f32) :
    FVec Ideal ⟨3, ![4, 2048, 4096]⟩ .f32 :=
  fun i => (∑ k : Fin 4096, x (ix3 (i 0) (i 1) k) * w (ix2 (i 2) k)) + bias (ix1 (i 2))

/-- Row r = b * 2048 + s of the merged input is row (b, s) of the input: the two coordinates of a merged row. -/
abbrev rowB (r : Fin 8192) : Fin 4 := ⟨r.val / 2048, by have := r.isLt; omega⟩
abbrev rowS (r : Fin 8192) : Fin 2048 := ⟨r.val % 2048, Nat.mod_lt _ (by decide)⟩

/-- The same layer over merged rows: out[r, o] = sum_k x[r / 2048, r % 2048, k] * w[o, k] + bias[o]. -/
def linearRows (x : FVec Ideal ⟨3, ![4, 2048, 4096]⟩ .f32) (w : FVec Ideal ⟨2, ![4096, 4096]⟩ .f32) (bias : FVec Ideal ⟨1, ![4096]⟩ .f32) :
    FVec Ideal ⟨2, ![8192, 4096]⟩ .f32 :=
  fun j => (∑ k : Fin 4096, x (ix3 (rowB (j 0)) (rowS (j 0)) k) * w (ix2 (j 1) k)) + bias (ix1 (j 1))

/-- Splitting the merged rows back into [4, 2048] gives the layer itself. -/
theorem linearRows_split (x : FVec Ideal ⟨3, ![4, 2048, 4096]⟩ .f32) (w : FVec Ideal ⟨2, ![4096, 4096]⟩ .f32) (bias : FVec Ideal ⟨1, ![4096]⟩ .f32)
    (h : (⟨2, ![8192, 4096]⟩ : Shape).ShapeCasts ⟨3, ![4, 2048, 4096]⟩) :
    shapeCast ⟨3, ![4, 2048, 4096]⟩ (linearRows x w bias) h = linear x w bias := by
  funext i
  have h0 : (i 0).val < 4 := (i 0).isLt
  have h1 : (i 1).val < 2048 := (i 1).isLt
  have h2 : (i 2).val < 4096 := (i 2).isLt
  rw [shapeCast_apply (linearRows x w bias) h i (ix2 ⟨(i 0).val * 2048 + (i 1).val, by omega⟩ (i 2))
    (by rw [Shape.rowMajor_val_two, Shape.rowMajor_val_three]
        show ((i 0).val * 2048 + (i 1).val) * 4096 + (i 2).val = ((i 0).val * 2048 + (i 1).val) * 4096 + (i 2).val
        rfl)]
  have eB : rowB ⟨(i 0).val * 2048 + (i 1).val, by omega⟩ = i 0 := Fin.ext (by show ((i 0).val * 2048 + (i 1).val) / 2048 = (i 0).val; omega)
  have eS : rowS ⟨(i 0).val * 2048 + (i 1).val, by omega⟩ = i 1 := Fin.ext (by show ((i 0).val * 2048 + (i 1).val) % 2048 = (i 1).val; omega)
  show (∑ k : Fin 4096, x (ix3 (rowB ⟨(i 0).val * 2048 + (i 1).val, _⟩) (rowS ⟨(i 0).val * 2048 + (i 1).val, _⟩) k) * w (ix2 (i 2) k)) + bias (ix1 (i 2)) = _
  rw [eB, eS]
  rfl

end Cert.Linear

end
-- ==== Proof.RefIsLinear.lean ====
/-
  The reference, read at an index, is the linear layer of its weight matrix: its `dot_general` contracts the input's last
  axis against the weight's axis 1, so entry (b, s, o) is the sum over k of x[b, s, k] * w[o, k], and the bias vector is
  broadcast along the last axis and added. The weight matrix is the stage the reference builds before the product.
-/
import proofs.«180328_j14130442404082_1_alg».proof.Proof.Gen.ReferenceIdeal.Read
import proofs.«180328_j14130442404082_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The reference's result is `linear` of the input, the weight matrix it built, and the bias. -/
theorem result_is_linear (x0 : (⟨S4x2048x4096, .f32⟩ : BufTy).Contents (Elt Ideal)) (x1 : (⟨S4096x8, .f32⟩ : BufTy).Contents (Elt Ideal))
    (x2 : (⟨S4096x512, .i32⟩ : BufTy).Contents (Elt Ideal)) (x3 : (⟨S4096, .i32⟩ : BufTy).Contents (Elt Ideal))
    (x4 x5 : (⟨S4096, .f32⟩ : BufTy).Contents (Elt Ideal)) (x6 : (⟨S65536, .i32⟩ : BufTy).Contents (Elt Ideal))
    (x7 : (⟨S65536, .f32⟩ : BufTy).Contents (Elt Ideal)) (x8 : (⟨S4096, .f32⟩ : BufTy).Contents (Elt Ideal)) :
    val_main_v34 (F := Ideal) x0 x1 x2 x3 x4 x5 x6 x7 x8
      = Cert.Linear.linear x0 (val_main_v30 (F := Ideal) x1 x2 x3 x4 x5 x6 x7) x8 := by
  funext i
  have el : ∀ k : Fin 4096, lidx_main_v31 i k = ix3 (i 0) (i 1) k := fun k => funext fun a => Fin.ext (by
    match a with
    | ⟨0, _⟩ => rfl
    | ⟨1, _⟩ => rfl
    | ⟨2, _⟩ => rfl)
  have er : ∀ k : Fin 4096, ridx_main_v31 i k = ix2 (i 2) k := fun k => funext fun a => Fin.ext (by
    match a with
    | ⟨0, _⟩ => rfl
    | ⟨1, _⟩ => rfl)
  have eb : idx_main_v32 (idx_main_v33 i) = ix1 (i 2) := funext fun a => Fin.ext (by
    match a with
    | ⟨0, _⟩ => rfl)
  rw [val_main_v34_apply, val_main_v31_apply, val_main_v33_apply, val_main_v32_apply]
  simp only [el, er, eb]
  rfl

end Cert.ReferenceIdeal.RefValue

end
-- ==== Proof.KernelHost.lean ====
/-
  The three arrays the kernel's region is launched on, as the host lines before it leave them, at the ideal values:
  the input with its two leading axes merged into 8192 rows (then a change of format, the identity); the weight matrix
  transposed (then a change of format); the bias as a 1 x 4096 row. The weight matrix is built by the same operations,
  in the same order, as in the reference, so it is named by the reference's own stage and never opened.
-/
import proofs.«180328_j14130442404082_1_alg».proof.Proof.Gen.KernelIdeal.Frame
import proofs.«180328_j14130442404082_1_alg».proof.Proof.Gen.ReferenceIdeal.Read
import proofs.«180328_j14130442404082_1_alg».proof.Proof.Spec
import Idealize.ShloMosaic.Lib.ValueLayout

noncomputable section

namespace Cert.KernelIdeal.HostValue

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The weight matrix, as the reference's stage of the arguments it is built from. -/
abbrev weight (c : Dev nD) : FVec Ideal S4096x4096 .f32 :=
  Cert.ReferenceIdeal.Read.val_main_v30 (F := Ideal) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

set_option maxHeartbeats 1000000 in
/-- The rows the region reads: the input, its leading axes merged. -/
theorem rows_eq (c : Dev nD) :
    (V m c main_v32 : S8192x4096.Idx → EReal)
      = truncf (F := Ideal) .bf16 (shapeCast S8192x4096 (m ((c : Thread nD τ).loc main_arg0)) shapeCasts_S4x2048x4096_S8192x4096) bitsLt_bf16_f32 := by
  show StableHlo.after hostOps0 (fun b => m (c, b)) (Proc.devRef .tc main_v32) = _
  after_results_simp
  rfl

set_option maxHeartbeats 1000000 in
/-- The bias row the region reads. -/
theorem biasRow_eq (c : Dev nD) :
    (V m c main_v35 : S1x4096.Idx → EReal) = shapeCast S1x4096 (m ((c : Thread nD τ).loc main_arg8)) shapeCasts_S4096_S1x4096 := by
  show StableHlo.after hostOps0 (fun b => m (c, b)) (Proc.devRef .tc main_v35) = _
  after_results_simp
  rfl

set_option maxHeartbeats 2000000 in
/-- The columns the region reads: the weight matrix, transposed. -/
theorem cols_eq (c : Dev nD) :
    (V m c main_v34 : S4096x4096.Idx → EReal)
      = truncf (F := Ideal) .bf16 (transpose S4096x4096 [1, 0] (weight m c) transposes_S4096x4096_S4096x4096_1_0) bitsLt_bf16_f32 := by
  show StableHlo.after hostOps0 (fun b => m (c, b)) (Proc.devRef .tc main_v34) = _
  after_results_simp
  rfl

end Cert.KernelIdeal.HostValue

end
-- ==== Proof.KernelBlocks.lean ====
/-
  The three launched arrays read at one entry, and each window's block at a grid point read at one entry.
  Merged row r of the input is row (r / 2048, r % 2048); entry (k, o) of the transposed weight matrix is entry (o, k)
  of the weight matrix; entry (0, o) of the bias row is entry o of the bias.
  The grid is 16 x 4: at a point whose output block is block (I, J) of the 8192 x 4096 result, the body is given rows
  512 I .. 512 I + 511 of the merged input (all 4096 columns), columns 1024 J .. 1024 J + 1023 of the transposed weight
  matrix (all 4096 rows), and the same columns of the bias row.
-/
import proofs.«180328_j14130442404082_1_alg».proof.Proof.KernelHost

noncomputable section

namespace Cert.KernelIdeal.HostValue

open Cert.KernelIdeal Cert.KernelIdeal.Gen Idealize.ShloMosaic Idealize.ShloMosaic.TcCoe Idealize.ShloMosaic.ValueIdx
open Idealize.SL.Sem Cert.Linear

variable (m : (ℓ : Loc nD τ sig) → Buf (Elt Ideal) ℓ)

/-- Merged row r, column k of the launched rows is the input at (r / 2048, r % 2048, k). -/
theorem rows_at (c : Dev nD) (r : Fin 8192) (k : Fin 4096) :
    (V m c main_v32 : S8192x4096.Idx → EReal) (ix2 r k) = m ((c : Thread nD τ).loc main_arg0) (ix3 (rowB r) (rowS r) k) := by
  refine (congrFun (rows_eq m c) (ix2 r k)).trans ?_
  refine (truncf_apply (ψ := .bf16) _ bitsLt_bf16_f32 _).trans ?_
  refine shapeCast_apply _ _ (ix2 r k) (ix3 (rowB r) (rowS r) k) ?_
  rw [Shape.rowMajor_val_three, Shape.rowMajor_val_two]
  show (r.val / 2048 * 2048 + r.val % 2048) * 4096 + k.val = r.val * 4096 + k.val
  omega

/-- Entry (k, o) of the launched columns is the weight matrix at (o, k). -/
theorem cols_at (c : Dev nD) (k : Fin 4096) (o : Fin 4096) :
    (V m c main_v34 : S4096x4096.Idx → EReal) (ix2 k o) = weight m c (ix2 o k) := by
  refine (congrFun (cols_eq m c) (ix2 k o)).trans ?_
  refine (truncf_apply (ψ := .bf16) _ bitsLt_bf16_f32 _).trans ?_
  exact transpose_ix2_apply (weight m c) _ k o

/-- Entry (0, o) of the launched bias row is the bias at o. -/
theorem biasRow_at (c : Dev nD) (u : Fin 1) (o : Fin 4096) :
    (V m c main_v35 : S1x4096.Idx → EReal) (ix2 u o) = m ((c : Thread nD τ).loc main_arg8) (ix1 o) := by
  refine (congrFun (biasRow_eq m c) (ix2 u o)).trans ?_
  exact shapeCast_a_1a_apply _ _ u o

end Cert.KernelIdeal.HostValue

end
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.KernelBody.lean ====
/-
  What the kernel body stores, read at one entry. The body loads a 512 x 4096 block of rows, a 4096 x 1024 block of
  columns of the transposed weight matrix and a 1 x 1024 piece of the bias row; it multiplies the two blocks on the matrix
  unit into a zero accumulator and adds the bias row to every row of the product. So entry (p, q) of what it stores is

      (sum over k < 4096 of rows[p, k] * cols[k, q]) + biasRow[0, q]

  on the extended reals: a change of float format is the identity there, and a product into a zero accumulator is the sum.
-/
import proofs.«180328_j14130442404082_1_alg».proof.Proof.Gen.KernelIdeal.Skeleton
import proofs.«180328_j14130442404082_1_alg».proof.Proof.LibMatmulSum
import Idealize.ShloMosaic.Lib.ValueLayout

noncomputable section

namespace Cert.KernelIdeal.BodyValue

open Cert.KernelIdeal Cert.KernelIdeal.Gen Idealize.ShloMosaic Idealize.ShloMosaic.ValueIdx

/-- The body's product contracts the left block's axis 1 against the right block's axis 0, over 4096 terms. -/
theorem product_plain : Cert.LibMatmulSum.Plain (n := 512) (K := 4096) (w := 1024) dot_S512x4096_S4096x1024_S512x1024_1_0_0_1_n_n where
  rank := rfl
  size := rfl
  l0 := fun i q => by
    unfold DotDims.lhsIdx
    rw [dif_neg (show ¬(0 : Fin S512x4096.rank) ∈ dot_S512x4096_S4096x1024_S512x1024_1_0_0_1_n_n.lhsBatch by decide),
      dif_pos (show (0 : Fin S512x4096.rank) ∈ dot_S512x4096_S4096x1024_S512x1024_1_0_0_1_n_n.lhsNonContracting by decide)]
    rfl
  l1 := fun i q => dot_S512x4096_S4096x1024_S512x1024_1_0_0_1_n_n.lhsIdx_val_of_single rfl i q
  r0 := fun i q => dot_S512x4096_S4096x1024_S512x1024_1_0_0_1_n_n.rhsIdx_val_of_single rfl i q
  r1 := fun i q => by
    unfold DotDims.rhsIdx
    rw [dif_neg (show ¬(1 : Fin S4096x1024.rank) ∈ dot_S512x4096_S4096x1024_S512x1024_1_0_0_1_n_n.rhsBatch by decide),
      dif_pos (show (1 : Fin S4096x1024.rank) ∈ dot_S512x4096_S4096x1024_S512x1024_1_0_0_1_n_n.rhsNonContracting by decide)]
    rfl

/-- Entry (p, q) of the stored block: the row-by-column sum plus the bias row's entry q. -/
theorem stored_at (rows : FVec Ideal S512x4096 .bf16) (cols : FVec Ideal S4096x1024 .bf16) (biasRow : FVec Ideal S1x1024 .f32)
    (p : Fin 512) (q : Fin 1024) :
    k0_pay1 (F := Ideal) rows cols biasRow (ix2 p q)
      = (∑ k : Fin 4096, rows (ix2 p k) * cols (ix2 k q)) + biasRow (ix2 (0 : Fin 1) q) := by
  unfold k0_pay1
  simp only [shapeCast_self]
  refine (addf_apply _ _ (ix2 p q)).trans ?_
  refine congrArg₂ (· + ·) ?_ ?_
  · exact Cert.LibMatmulSum.matmul_zero_at product_plain none rows cols p q
  · exact broadcastTo_1b_ab_apply biasRow _ p q

end Cert.KernelIdeal.BodyValue

end
-- ==== Proof.KernelArray.lean ====
/-
  From the blocks to the array. At the grid point whose output block is block (I, J) of the 8192 x 4096 result, what the
  body stores is that block of `linearRows`: its entry (p, q) is the sum over k of merged-input row 512 I + p times weight
  row 1024 J + q, plus the bias at 1024 J + q. The 16 x 4 output blocks tile the result, every point writes its block back,
  so after the region the result array is `linearRows` of the input, the weight matrix and the bias.
-/
import proofs.«180328_j14130442404082_1_alg».proof.Proof.KernelBlocks
import proofs.«180328_j14130442404082_1_alg».proof.Proof.KernelBody
import Idealize.ShloMosaic.Lib.Pipeline.Value

noncomputable section

namespace Cert.KernelIdeal.ArrayValue

open Cert.KernelIdeal Cert.KernelIdeal.Gen Idealize.ShloMosaic Idealize.ShloMosaic.TcCoe Idealize.ShloMosaic.ValueIdx
open Idealize.SL.Sem Cert.Linear Cert.KernelIdeal.HostValue Cert.KernelIdeal.BodyValue
open Idealize.ShloMosaic.Pipeline (Dat)

theorem hz : (![0, 0] : Fin 2 → Nat) = fun _ => 0 := funext fun a => by fin_cases a <;> rfl

/-- One point's stored block, over variables: if the three loaded blocks are the rows from 512 I, the weight rows from
    1024 J (read transposed) and the bias from 1024 J, the stored entry (p, q) is `linearRows` at (512 I + p, 1024 J + q). -/
theorem point_value (x0 : FVec Ideal S512x4096 .bf16) (x1 : FVec Ideal S4096x1024 .bf16) (x2 : FVec Ideal S1x1024 .f32)
    (X : FVec Ideal ⟨3, ![4, 2048, 4096]⟩ .f32) (W : FVec Ideal ⟨2, ![4096, 4096]⟩ .f32) (B : FVec Ideal ⟨1, ![4096]⟩ .f32)
    (p : Fin 512) (q : Fin 1024) (R : Fin 8192) (O : Fin 4096)
    (h0 : ∀ k : Fin 4096, x0 (ix2 p k) = X (ix3 (rowB R) (rowS R) k))
    (h1 : ∀ k : Fin 4096, x1 (ix2 k q) = W (ix2 O k))
    (h2 : x2 (ix2 (0 : Fin 1) q) = B (ix1 O)) :
    k0_pay1 (F := Ideal) x0 x1 x2 (ix2 p q) = linearRows X W B (ix2 R O) := by
  refine (stored_at x0 x1 x2 p q).trans ?_
  show _ = (∑ k : Fin 4096, X (ix3 (rowB R) (rowS R) k) * W (ix2 O k)) + B (ix1 O)
  rw [h2]
  refine congrArg (· + B (ix1 O)) (Finset.sum_congr rfl fun k _ => ?_)
  rw [h0 k, h1 k]

variable (m : (ℓ : Loc nD τ sig) → Buf (Elt Ideal) ℓ)

/-- The printed index maps, decided once over the 64 grid points: the rows window follows the output's block row and
    sits at block column 0; the columns window and the bias window follow the output's block column and sit at block
    row 0; the output's block indices range over 16 x 4. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) ≤ 15 ∧ win0_3.index t (1 : Fin 2) ≤ 3 :=
  (by decide +kernel : ∀ t : Fin grid0.N, _)

/-- Every one of the 16 x 4 output blocks is some point's. -/
theorem idx_onto : ∀ (q0 : Fin 16) (q1 : Fin 4), ∃ t : Fin cfg0.N, win0_3.index t = ![q0.val, q1.val] :=
  (by decide +kernel : ∀ (q0 : Fin 16) (q1 : Fin 4), ∃ t : Fin grid0.N, win0_3.index t = ![q0.val, q1.val])

/-- Entry (p, k) of the rows block at point t is the input's merged row 512 I + p at column k. -/
theorem rowsBlk_at (c : Dev nD) (t : Fin cfg0.N) (p : Fin 512) (k : Fin 4096) (R : Fin 8192)
    (hR : R.val = win0_3.index t (0 : Fin 2) * 512 + p.val) :
    (iblk m c 0 t : S512x4096.Idx → EReal) (ix2 p k) = m ((c : Thread nD τ).loc main_arg0) (ix3 (rowB R) (rowS R) k) := by
  obtain ⟨e0, e1, -⟩ := idx_facts t
  refine Eq.trans ?_ (rows_at m c R k)
  show (V m c main_v32 : S8192x4096.Idx → EReal) (((cfg0.win 0).blk t).view.emb (ix2 p k)) = (V m c main_v32 : S8192x4096.Idx → EReal) (ix2 R k)
  refine congrArg (V m c main_v32 : S8192x4096.Idx → EReal) (funext fun a => Fin.ext ?_)
  match a with
  | ⟨0, _⟩ => show win0_0.index t (0 : Fin 2) * 512 + 1 * p.val = R.val; omega
  | ⟨1, _⟩ => show win0_0.index t (1 : Fin 2) * 4096 + 1 * k.val = k.val; omega

/-- Entry (k, q) of the columns block at point t is the weight matrix at (1024 J + q, k). -/
theorem colsBlk_at (c : Dev nD) (t : Fin cfg0.N) (k : Fin 4096) (q : Fin 1024) (O : Fin 4096)
    (hO : O.val = win0_3.index t (1 : Fin 2) * 1024 + q.val) :
    (iblk m c 1 t : S4096x1024.Idx → EReal) (ix2 k q) = weight m c (ix2 O k) := by
  obtain ⟨-, -, e2, e3, -⟩ := idx_facts t
  refine Eq.trans ?_ (cols_at m c k O)
  show (V m c main_v34 : S4096x4096.Idx → EReal) (((cfg0.win 1).blk t).view.emb (ix2 k q)) = (V m c main_v34 : S4096x4096.Idx → EReal) (ix2 k O)
  refine congrArg (V m c main_v34 : S4096x4096.Idx → EReal) (funext fun a => Fin.ext ?_)
  match a with
  | ⟨0, _⟩ => show win0_1.index t (0 : Fin 2) * 4096 + 1 * k.val = k.val; omega
  | ⟨1, _⟩ => show win0_1.index t (1 : Fin 2) * 1024 + 1 * q.val = O.val; omega

/-- Entry (0, q) of the bias block at point t is the bias at 1024 J + q. -/
theorem biasBlk_at (c : Dev nD) (t : Fin cfg0.N) (q : Fin 1024) (O : Fin 4096)
    (hO : O.val = win0_3.index t (1 : Fin 2) * 1024 + q.val) :
    (iblk m c 2 t : S1x1024.Idx → EReal) (ix2 (0 : Fin 1) q) = m ((c : Thread nD τ).loc main_arg8) (ix1 O) := by
  obtain ⟨-, -, -, -, e4, e5, -⟩ := idx_facts t
  refine Eq.trans ?_ (biasRow_at m c (0 : Fin 1) O)
  show (V m c main_v35 : S1x4096.Idx → EReal) (((cfg0.win 2).blk t).view.emb (ix2 (0 : Fin 1) q)) = (V m c main_v35 : S1x4096.Idx → EReal) (ix2 (0 : Fin 1) O)
  refine congrArg (V m c main_v35 : S1x4096.Idx → EReal) (funext fun a => Fin.ext ?_)
  match a with
  | ⟨0, _⟩ => show win0_2.index t (0 : Fin 2) * 1 + 1 * 0 = 0; omega
  | ⟨1, _⟩ => show win0_2.index t (1 : Fin 2) * 1024 + 1 * q.val = O.val; omega

/-- What point t writes back is block t of `linearRows` of the input, the weight matrix and the bias. -/
theorem flushed_eq (c : Dev nD) (t : Fin cfg0.N) :
    (dats m 0 c).flushed 3 t = ((cfg0.win 3).blk t).view.read (Elt Ideal)
      (linearRows (m ((c : Thread nD τ).loc main_arg0)) (weight m c) (m ((c : Thread nD τ).loc main_arg8))) := by
  show (cfg0.win 3).cut (grid0.coords t) ((dats m 0 c).after 3 t) = _
  rw [after0_3]
  unfold out0_3
  rw [View.canon_unit_zero hz]
  simp only [View.ld_unit_zero (S := S512x4096) hz, View.ld_unit_zero (S := S4096x1024) hz, View.ld_unit_zero (S := S1x1024) hz]
  obtain ⟨-, -, -, -, -, -, b0, b1⟩ := idx_facts t
  funext j
  obtain ⟨p, q, rfl⟩ : ∃ (p : Fin 512) (q : Fin 1024), j = ix2 p q := ⟨j 0, j 1, eq_ix2 j⟩
  have hR : win0_3.index t (0 : Fin 2) * 512 + p.val < 8192 := by have := p.isLt; omega
  have hO : win0_3.index t (1 : Fin 2) * 1024 + q.val < 4096 := by have := q.isLt; omega
  show k0_pay1 (F := Ideal) (iblk m c 0 t) (iblk m c 1 t) (iblk m c 2 t) (ix2 p q)
      = linearRows (m ((c : Thread nD τ).loc main_arg0)) (weight m c) (m ((c : Thread nD τ).loc main_arg8)) (((cfg0.win 3).blk t).view.emb (ix2 p q))
  have hemb : ((cfg0.win 3).blk t).view.emb (ix2 p q) = ix2 (⟨_, hR⟩ : Fin 8192) (⟨_, hO⟩ : Fin 4096) := funext fun a => Fin.ext (by
    match a with
    | ⟨0, _⟩ => show win0_3.index t (0 : Fin 2) * 512 + 1 * p.val = win0_3.index t (0 : Fin 2) * 512 + p.val; omega
    | ⟨1, _⟩ => show win0_3.index t (1 : Fin 2) * 1024 + 1 * q.val = win0_3.index t (1 : Fin 2) * 1024 + q.val; omega)
  rw [hemb]
  exact point_value (iblk m c 0 t) (iblk m c 1 t) (iblk m c 2 t) _ _ _ p q ⟨_, hR⟩ ⟨_, hO⟩
    (fun k => rowsBlk_at m c t p k ⟨_, hR⟩ rfl) (fun k => colsBlk_at m c t k q ⟨_, hO⟩ rfl) (biasBlk_at m c t q ⟨_, hO⟩ rfl)

/-- An entry of the result is in point t's block iff each coordinate is in the block's range on its axis. -/
theorem mem_blk (t : Fin cfg0.N) (i : S8192x4096.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v36).slice (win0_3.rect t)).set ↔ _
  rw [View.set_slice_whole, Rect.mem_set_unit]
  exact Iff.rfl

/-- Entry (r, o) of the result lies in the block of the point whose output block is (r / 512, o / 1024). -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := idx_onto ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- The result array after the region: `linearRows` of the input, the weight matrix and the bias. -/
theorem final (c : Dev nD) :
    (dats m 0 c).arrAt 3 cfg0.N
      = linearRows (m ((c : Thread nD τ).loc main_arg0)) (weight m c) (m ((c : Thread nD τ).loc main_arg8)) :=
  (dats m 0 c).arrAt_eq_of_cover 3 _ (fun t _ => flushed_eq m c t) cover

end Cert.KernelIdeal.ArrayValue

end
-- ==== Proof.KernelRun.lean ====
/-
  The idealized kernel's run, read to the end. After the region the 8192 x 4096 result array holds `linearRows`; the one
  host line after the region splits the 8192 merged rows back into [4, 2048], which turns `linearRows` into `linear`.
  So every execution ends with the result at `linear` of the input, the weight matrix and the bias, the arguments unchanged.
-/
import proofs.«180328_j14130442404082_1_alg».proof.Proof.KernelArray
import Idealize.ShloMosaic.Lib.StableHlo.Run

noncomputable section

namespace Cert.KernelIdeal.RunValue

open Cert.KernelIdeal Cert.KernelIdeal.Gen Idealize.ShloMosaic Idealize.ShloMosaic.TcCoe Idealize.ShloMosaic.ValueIdx
open Idealize.SL.Sem Idealize.ShloMosaic.StableHlo Cert.Linear Cert.KernelIdeal.HostValue Cert.KernelIdeal.ArrayValue

variable (m : (ℓ : Loc nD τ sig) → Buf (Elt Ideal) ℓ) (ρ : Dev nD → PrngReg)

/-- What the program's result buffer holds after the line that follows the region. -/
theorem result_eq (c : Dev nD) :
    (Pipeline.afterTail₀ cfgs (dats m) 0 (V0 m) [hostOps1] c main_v37 : S4x2048x4096.Idx → EReal)
      = linear (m ((c : Thread nD τ).loc main_arg0)) (weight m c) (m ((c : Thread nD τ).loc main_arg8)) := by
  have hW : Pipeline.withArrays spec0 c (V0 m c) (fun w => (dats m 0 c).arrAt w cfg0.N) (Proc.devRef .tc main_v36)
      = linearRows (m ((c : Thread nD τ).loc main_arg0)) (weight m c) (m ((c : Thread nD τ).loc main_arg8)) :=
    (Pipeline.withArrays_arr spec0 launch0.win.arr_inj c _ _ 3).trans (final m c)
  unfold Pipeline.afterTail₀
  show StableHlo.after hostOps1 _ (Proc.devRef .tc main_v37) = _
  after_results
  refine Eq.trans ?_ (linearRows_split (m ((c : Thread nD τ).loc main_arg0)) (weight m c) (m ((c : Thread nD τ).loc main_arg8))
    shapeCasts_S8192x4096_S4x2048x4096)
  rw [← hW]
  rfl

/-- The idealized kernel's run: the result buffer ends at `linear`, every argument as launched. -/
theorem run : θ_run defs (onTc (τ := τ) (main (F := Ideal))) ⟨m, fun _ => 0, ρ⟩ fun r => ∀ c : Dev nD,
      r.2.mem ((c.tc : Thread nD τ).loc main_v37)
        = linear (m ((c : Thread nD τ).loc main_arg0)) (weight m c) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨((h c).2 main_v37 (Pipeline.mem_restRefs_of main_v37 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.RunValue

end
-- ==== Proof.lean ====
/-
  A quantized linear layer. Both programs first build the same 4096 x 4096 weight matrix w on the host, by the same
  operations in the same order: rows of a codebook gathered by a table of codes and laid out as 512 groups of 8 columns,
  the columns scattered by a column assignment, every entry scaled by a row-norm times a column-norm, and 65536 entries
  overwritten from a sparse list. Then

    the reference contracts the input's last axis with the weight's axis 1 and adds the bias:
        out[b, s, o] = (sum over k of x[b, s, k] * w[o, k]) + bias[o];

    the kernel merges the input's two leading axes into 8192 rows, transposes w, and runs a 16 x 4 grid whose point
    (I, J) multiplies rows 512 I .. 512 I + 511 of the input by columns 1024 J .. 1024 J + 1023 of the transposed weight
    on the matrix unit (into a zero accumulator, all 4096 terms at once) and adds the bias row; the 8192 rows of the result
    are then split back into [4, 2048].

  On the extended reals a change of float format is the identity and a matrix product is the sum it abbreviates, so both
  are the one function `Cert.Linear.linear` of the input, w and the bias: the same terms in the same order, entry by entry.
  No law of arithmetic is used beyond that, so the precondition (finite inputs) is never opened, and the weight matrix is
  carried as one array: its construction is shared, and is never read.

  The modules: Spec (the function, and its form over merged rows); RefIsLinear (the reference is that function);
  KernelBody (one stored entry of the body); KernelHost, KernelBlocks (the arrays the region is launched on, and each
  window's block, read at an entry); KernelArray (blocks to the result array); KernelRun (the line after the region, and the run).
-/
import proofs.«180328_j14130442404082_1_alg».proof.Defs
import proofs.«180328_j14130442404082_1_alg».proof.Proof.Gen.Kernel
import proofs.«180328_j14130442404082_1_alg».proof.Proof.Gen.Kernel.Skeleton
import proofs.«180328_j14130442404082_1_alg».proof.Proof.Gen.Kernel.Launch
import proofs.«180328_j14130442404082_1_alg».proof.Proof.Gen.Kernel.Points
import proofs.«180328_j14130442404082_1_alg».proof.Proof.Gen.Kernel.Frame
import proofs.«180328_j14130442404082_1_alg».proof.Proof.Gen.KernelIdeal
import proofs.«180328_j14130442404082_1_alg».proof.Proof.Gen.KernelIdeal.Skeleton
import proofs.«180328_j14130442404082_1_alg».proof.Proof.Gen.KernelIdeal.Launch
import proofs.«180328_j14130442404082_1_alg».proof.Proof.Gen.KernelIdeal.Points
import proofs.«180328_j14130442404082_1_alg».proof.Proof.Gen.KernelIdeal.Frame
import proofs.«180328_j14130442404082_1_alg».proof.Proof.Gen.ReferenceIdeal
import proofs.«180328_j14130442404082_1_alg».proof.Proof.Gen.Pre_finite_inputs
import proofs.«180328_j14130442404082_1_alg».proof.Proof.Gen.ReferenceIdeal.Run
import proofs.«180328_j14130442404082_1_alg».proof.Proof.Gen.ReferenceIdeal.Read
import proofs.«180328_j14130442404082_1_alg».proof.Proof.RefIsLinear
import proofs.«180328_j14130442404082_1_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs to the end and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the result at `linear` of the input, the shared weight matrix and the bias. -/
theorem algebraic : Cert.algebraic_KernelIdeal_ReferenceIdeal := by
  intro m ρ m' ρ' _ hagree
  refine ⟨fun c => Cert.Linear.linear (m ((c.tc : Thread Cert.KernelIdeal.nD Cert.KernelIdeal.τ).loc Cert.KernelIdeal.main_arg0))
      (Cert.KernelIdeal.HostValue.weight m c) (m ((c.tc : Thread Cert.KernelIdeal.nD Cert.KernelIdeal.τ).loc Cert.KernelIdeal.main_arg8)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v34_eq (F := Ideal) _ _ _ _ _ _ _ _ _).trans ?_
  refine (Cert.ReferenceIdeal.RefValue.result_is_linear _ _ _ _ _ _ _ _ _).trans ?_
  obtain ⟨h0, h1, h2, h3, h4, h5, h6, h7, h8⟩ := hagree c
  rw [h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
